-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S11264x2048 : Shape := ⟨2, ![11264, 2048]⟩
abbrev S2048x5632 : Shape := ⟨2, ![2048, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S11264x2048 : S_.BroadcastsInDim S11264x2048 (![] : Fin 0 → Fin S11264x2048.rank)
  reducesTo_S11264x2048_S_d0_1 : S11264x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S8192x2048 .f32) (main_arg1 : FVec F S11264x2048 .f32) (main_arg2 : FVec F S2048x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S11264x2048 .f32 := Host.absf main_arg1
  let main_cst_0 : FVec F S_ .f32 := constant S_ .f32 0x7F800000#32
  let main_v5 : FVec F S11264x2048 .f32 := broadcastInDim S11264x2048 ![] bcast_S_S11264x2048 main_cst_0
  let main_v6 : IVec S11264x2048 1 := cmpf .olt main_v4 main_v5
  let main_c_1 : IVec S_ 1 := constantI S_ 1 1#1
  let main_v7 : IVec S_ 1 := (fun x v => Host.reduce IntOp.andi x v reducesTo_S11264x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Kernel.lean ====
abbrev S8192x2048 : Shape := ⟨2, ![8192, 2048]⟩
abbrev S11264x2048 : Shape := ⟨2, ![11264, 2048]⟩
abbrev S2048x5632 : Shape := ⟨2, ![2048, 5632]⟩
abbrev S512x2048 : Shape := ⟨2, ![512, 2048]⟩
abbrev S256x2048 : Shape := ⟨2, ![256, 2048]⟩
abbrev S2048x256 : Shape := ⟨2, ![2048, 256]⟩
abbrev S512x256 : Shape := ⟨2, ![512, 256]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S11264x2048, .f32⟩
  | .hbm, ⟨2, _⟩ => ⟨S2048x5632, .f32⟩
  | .hbm, ⟨3, _⟩ => ⟨S8192x2048, .bf16⟩
  | .hbm, ⟨4, _⟩ => ⟨S11264x2048, .bf16⟩
  | .hbm, ⟨5, _⟩ => ⟨S2048x5632, .bf16⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2048x256, .bf16⟩
  | .local _ .vmem, ⟨7, _⟩ => ⟨S2048x256, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 22], ![false, false]⟩

def k0_cond2 (i : grid0.Coords) : BitVec 1 :=
  let arg1 : BitVec 32 := BitVec.ofNat 32 (i 1).val
  let c21_i32 : BitVec 32 := 21#32
  let v23 : BitVec 1 := Scalar.cmpi .eq arg1 c21_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11264x2048.size a
  hwx0_1 : ∀ i : grid0.Coords, EltTy.bits .bf16 = 32 ∨ (Rect.block (s := S11264x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11264x2048.size a
  hwx0_2 : ∀ i : grid0.Coords, EltTy.bits .bf16 = 32 ∨ (Rect.block (s := S11264x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x5632.size a
  hwx0_3 : ∀ i : grid0.Coords, EltTy.bits .bf16 = 32 ∨ (Rect.block (s := S2048x5632) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S11264x2048 : Shape := ⟨2, ![11264, 2048]⟩
abbrev S2048x5632 : Shape := ⟨2, ![2048, 5632]⟩
abbrev S8192x11264 : Shape := ⟨2, ![8192, 11264]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S11264x2048, .f32⟩
  | .hbm, ⟨2, _⟩ => ⟨S2048x5632, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8192x11264_S8192x5632_0_0 : S8192x11264.Slices ![0, 0] S8192x5632
  slices_S8192x11264_S8192x5632_0_5632 : S8192x11264.Slices ![0, 5632] S8192x5632
  bcast_S_S8192x5632 : S_.BroadcastsInDim S8192x5632 (![] : Fin 0 → Fin S8192x5632.rank)
  dot_S8192x2048_S11264x2048_S8192x11264_1_1_0_0_n_n_wf : DotDims.WF S8192x2048 S11264x2048 S8192x11264 [1] [1] [0] [0] [] []
  dot_S8192x5632_S2048x5632_S8192x2048_1_1_0_0_n_n_wf : DotDims.WF S8192x5632 S2048x5632 S8192x2048 [1] [1] [0] [0] [] []

variable [Facts₀]

def dot_S8192x2048_S11264x2048_S8192x11264_1_1_0_0_n_n : DotDims S8192x2048 S11264x2048 S8192x11264 where
  lhsContracting := [1]
  rhsContracting := [1]
  lhsNonContracting := [0]
  rhsNonContracting := [0]
  lhsBatch := []
  rhsBatch := []
  wf := dot_S8192x2048_S11264x2048_S8192x11264_1_1_0_0_n_n_wf
def dot_S8192x5632_S2048x5632_S8192x2048_1_1_0_0_n_n : DotDims S8192x5632 S2048x5632 S8192x2048 where
  lhsContracting := [1]
  rhsContracting := [1]
  lhsNonContracting := [0]
  rhsNonContracting := [0]
  lhsBatch := []
  rhsBatch := []
  wf := dot_S8192x5632_S2048x5632_S8192x2048_1_1_0_0_n_n_wf

class Facts : Prop extends Facts₀ where

variable [Facts]
-- ==== Proof.LibSharedLaunch.lean ====
/-
  A launch theorem for a pipelined kernel region whose INPUT windows may share an array, with host
  operations before and after the region.

  When two input windows read one array, the windows' arrays are not pairwise distinct, and the
  full share of the array's buffer cannot be handed to each window. Instead the buffer's full share
  is split among the windows that read it (each window's proof data names its part), and joined
  again when the region ends. This module takes those two steps as hypotheses of the certificate:

  * at ENTRY, the distinct buffers behind the windows' arrays, each whole at the full share at the
    entry contents, make the proof data's arrays at their entry contents (`hsplit`);
  * at EXIT, the proof data's arrays at their final contents ARE those distinct buffers, each whole
    at the full share, at some contents `V₁` (`hexit`, both directions) — `V₁` agreeing with the
    entry contents on every buffer that is no window's array (`hrest`);
  * the host operations after the region leave every window's array as the region left it (`hkeep`).

  The conclusion is the run of @main to a state in which every unscoped buffer holds what the
  host operations after the region compute from `V₁`.
-/
import Idealize.ShloMosaic.Lib.Pipeline.FrameSuffix

noncomputable section

namespace Cert.Lib.SharedLaunch

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The run of @main — host operations, the region, host operations — for a region whose input
    windows may share arrays. -/
theorem θ_run_around_track_shared
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ V₁ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ c w, StableHlo.after opss.flatten (V₁ c) (Proc.devRef .tc (arrRef (cfg).spec w)) = V₁ c (Proc.devRef .tc (arrRef (cfg).spec w)))
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hexit : ∀ c, ((dats p c).arrays ((dats p c).arrAt · (cfg).N) : sProp 𝕄) ⊣⊢ arrBufs (cfg).spec c (fun b => V₁ c (Proc.devRef .tc b)))
    (hrest : ∀ c b, b ∈ restRefs sig (cfg).spec → V₁ c (Proc.devRef .tc b) = V₀ c (Proc.devRef .tc b))
    (harrN : ∀ c w, V₁ c (Proc.devRef .tc (arrRef (cfg).spec w)) = (dats p c).arrAt w (cfg).N)
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD, ∀ b : Ref sig .tc, b.isScoped = false →
      r.2.mem ((c.tc : Thread nD τ).loc b) = StableHlo.after opss.flatten (V₁ c) (Proc.devRef .tc b)) := by
  classical
  -- the buffers that are no window's array hold the entry contents when the region ends
  have hrestEq : ∀ c, (unscopedRest (Ix := Unit) (Name := ℕ) (U := UR sig nD τ) (Lvl := ℕ) (cfg).spec c (fun b => V₀ c (Proc.devRef .tc b)) : sProp 𝕄)
      = unscopedRest (cfg).spec c (fun b => V₁ c (Proc.devRef .tc b)) := fun c => by
    unfold unscopedRest
    exact bigSep_congr fun b hb => by dsimp only; rw [hrest c b hb]
  -- all unscoped buffers at the exit contents, from the proof data's arrays and the bypassing buffers
  have hjoin : ∀ c, iprop(((dats p c).arrays ((dats p c).arrAt · (cfg).N) : sProp 𝕄)
        ∗ unscopedRest (cfg).spec c (fun b => V₀ c (Proc.devRef .tc b)))
      ⊢ (StableHlo.held (c.tc : Thread nD τ) (ucRefs τ sig) (V₁ c) : sProp 𝕄) := fun c => by
    rw [← unscopedBufs_held (Ix := Unit) (Name := ℕ) (U := UR sig nD τ) (Lvl := ℕ) c (V₁ c),
      Pipeline.unscopedBufs_split₀ cfgs p hw.arr_unscoped c, hrestEq c]
    iintro ⟨Ha, Hr⟩
    isplitl [Ha]; · iapply (hexit c).1; iexact Ha
    iexact Hr
  -- and back, after the host operations
  have hsplitN : ∀ c, (StableHlo.held (c.tc : Thread nD τ) (ucRefs τ sig) (StableHlo.after opss.flatten (V₁ c)) : sProp 𝕄)
      ⊢ iprop(((dats p c).arrays ((dats p c).arrAt · (cfg).N) : sProp 𝕄)
        ∗ unscopedRest (cfg).spec c (fun b => StableHlo.after opss.flatten (V₁ c) (Proc.devRef .tc b))) := fun c => by
    rw [← unscopedBufs_held (Ix := Unit) (Name := ℕ) (U := UR sig nD τ) (Lvl := ℕ) c (StableHlo.after opss.flatten (V₁ c)),
      Pipeline.unscopedBufs_split₀ cfgs p hw.arr_unscoped c]
    have e : (arrBufs (Ix := Unit) (Name := ℕ) (U := UR sig nD τ) (Lvl := ℕ) (cfg).spec c (fun b => StableHlo.after opss.flatten (V₁ c) (Proc.devRef .tc b)) : sProp 𝕄)
        = arrBufs (cfg).spec c (fun b => V₁ c (Proc.devRef .tc b)) := by
      unfold arrBufs
      exact bigSep_congr fun b hb => by
        obtain ⟨w, -, rfl⟩ := Finset.mem_image.mp hb
        dsimp only; rw [hkeep c w]
    rw [e]
    iintro ⟨Ha, Hr⟩
    isplitl [Ha]; · iapply (hexit c).2; iexact Ha
    iexact Hr
  exact θ_run_region_pf_tail (fun q => (cfgs q).toPCfg (Val := Val)) (fun q => (cfgs q).toPCfg_adm) dats () hcell p hw
      (OwnSemFacts.none (cfg).spec) (PreFacts.none _) emb₁ defs₀ 𝒱₀ m g main
      (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (V₁ c) (Proc.devRef .tc b)))
    (hX := fun c => by
      rw [show (unscopedRestP (Ix := Unit) (Name := ℕ) (U := UR sig nD τ) (Lvl := ℕ) ((cfgs p).toPCfg (Val := Val)).pre (cfg).spec c (fun b => V₀ c (Proc.devRef .tc b)) : sProp 𝕄)
          = unscopedRest (cfg).spec c (fun b => V₀ c (Proc.devRef .tc b)) from unscopedRestP_none _ _ _]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [← List.append_nil (opss.map StableHlo.seq)]
      have aux : iprop((boundary (c.tc : Thread nD τ) : sProp 𝕄) ∗ ((dats p c).arrays ((dats p c).arrAt · (cfg).N) : sProp 𝕄)
          ∗ unscopedRest (cfg).spec c (fun b => V₀ c (Proc.devRef .tc b)))
        ⊢ iprop((boundary (c.tc : Thread nD τ) : sProp 𝕄) ∗ (StableHlo.held (c.tc : Thread nD τ) (ucRefs τ sig) (V₁ c) : sProp 𝕄)) :=
        sep_mono_right (hjoin c)
      iintro ⟨Hk, Hb⟩
      ihave Hb' := aux $$ Hb
      iapply (wp_seqs_then (fun q => (cfgs q).toPCfg (Val := Val)) defs₀ 𝒱₀ c (ucRefs τ sig) [] opss hsub hfresh (V₁ c)) $$ Hb'
      iintro Hb
      rw [chain_nil, wp_pure]
      imodintro
      iapply Hk
      icases Hb with ⟨-, H⟩
      iapply (hsplitN c); iexact H)
    (QY := fun c s => ∀ b ∈ restRefs sig (cfg).spec, s.mem ((c.tc : Thread nD τ).loc b) = StableHlo.after opss.flatten (V₁ c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (V₁ c) (Proc.devRef .tc b)) s')
      isplitl [HU] <;> iassumption)
    (hQ := fun s h c b hb => by
      by_cases hi : b ∈ Finset.univ.image (arrRef (cfg).spec)
      · obtain ⟨w, -, rfl⟩ := Finset.mem_image.mp hi
        rw [hkeep c w, harrN c w]; exact (h c).1 w
      · exact (h c).2.2 b (Finset.mem_sdiff.mpr ⟨Finset.mem_filter.mpr ⟨Finset.mem_univ _, by simp [hb]⟩, hi⟩))

end Cert.Lib.SharedLaunch

end
-- ==== Proof.K.Runs.lean ====
/-
  What the three control cases of the expert kernel's body share: the buffer contents the region is entered
  with (the three arguments narrowed by the host, the result buffer as found), each window's block read off
  them, the two branch conditions of the body in closed form over the 16 × 22 grid (the accumulator is cleared
  where the inner coordinate is 0 and copied to the output block where it is 21), where the output window is
  idle, and the staging and scratch memrefs the body is called with.
-/
import proofs.«115090_j7808250544398_2_alg».proof.Proof.Gen.Kernel.Launch
import proofs.«115090_j7808250544398_2_alg».proof.Proof.Gen.Kernel.Skeleton
import proofs.«115090_j7808250544398_2_alg».proof.Proof.Gen.Kernel.Points
import proofs.«115090_j7808250544398_2_alg».proof.Proof.LibSharedLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the three arguments narrowed to bf16 by the host. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three host conversions, then the region, then the return. -/
theorem hmain (𝒱₀ : Variants) : Pipeline.HMainK (Ix := Unit) (Name := ℕ) (U := UR sig nD τ) (Lvl := ℕ) cfgs 0 defs₀ 𝒱₀ m (main (F := F)) (V m)
      (fun _ => Pipeline.chain []) :=
  Pipeline.hmain_around cfgs 0 defs₀ 𝒱₀ m main [hostOps0] [] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is
    not fetched the block index has not moved. One lemma per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "The inner grid coordinate is 0": the accumulator is cleared first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 22 = 0 :=
  (by decide +kernel : ∀ t : Fin grid0.N, cond0_0 (grid0.coords t) ↔ t.val % 22 = 0)

/-- "The inner grid coordinate is 21": the accumulator is copied into the output block. -/
abbrev cond0_1 (i : grid0.Coords) : Prop := k0_cond2 i = 1#1
theorem hcond0_1 : ∀ t : Fin cfg0.N, cond0_1 (grid0.coords t) ↔ t.val % 22 = 21 :=
  (by decide +kernel : ∀ t : Fin grid0.N, cond0_1 (grid0.coords t) ↔ t.val % 22 = 21)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from the last inner coordinate the body stores nothing into the output block, and the pipeline does not
    write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S512x2048 .f32 := (Memref.whole cc0_stg4_0 : Memref sig .tc .vmem S512x2048 .f32).view
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S512x2048 .f32 := Memref.whole cc0_scratch0
abbrev VS0_0 : View sig .tc .vmem S512x2048 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The body at a point whose inner coordinate is 0 (and not 21): the accumulator, whatever it held, is
  cleared and then receives this tile's contribution; the output block is not touched. The pieces the
  accumulator ends with are found by running the body.
-/
import proofs.«115090_j7808250544398_2_alg».proof.Proof.K.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S256x2048 .bf16) (x2 : Vec F S256x2048 .bf16) (x3 : Vec F S2048x256 .bf16) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_kernel i arg2 harg2 arg3 harg3 arg4 harg4 arg5 harg5 arg6 harg6 arg7 harg7) K } := by
  refine ⟨[], ?_, fun xi4 E K => ?run⟩
  case run =>
    simp only [cc0__expert_kernel_eq_skeleton]; unfold cc0__expert_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.RunB.lean ====
/-
  The body at a point whose inner coordinate is neither 0 nor 21: the accumulator, holding what the point
  before left, receives this tile's contribution; the output block is not touched.
-/
import proofs.«115090_j7808250544398_2_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S256x2048 .bf16) (x2 : Vec F S256x2048 .bf16) (x3 : Vec F S2048x256 .bf16) (xs0 : Vec F S512x2048 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_kernel i arg2 harg2 arg3 harg3 arg4 harg4 arg5 harg5 arg6 harg6 arg7 harg7) K } := by
  refine ⟨[], ?_, fun xi4 E K => ?run⟩
  case run =>
    simp only [cc0__expert_kernel_eq_skeleton]; unfold cc0__expert_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.RunC.lean ====
/-
  The body at a point whose inner coordinate is 21: the accumulator receives the last tile's contribution
  and is then copied, whole, into the output block.
-/
import proofs.«115090_j7808250544398_2_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) :
    Σ' (L4 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__expert_kernel i arg2 harg2 arg3 harg3 arg4 harg4 arg5 harg5 arg6 harg6 arg7 harg7) K } := by
  refine ⟨?_, ?_, fun E K => ?run⟩
  case run =>
    simp only [cc0__expert_kernel_eq_skeleton]; unfold cc0__expert_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.K.Body.lean ====
/-
  The frame of the expert kernel's program, first half: what the accumulator and the output block hold after
  every grid point (by recursion on the point: cleared and filled at inner coordinate 0, added to afterwards,
  copied out at inner coordinate 21), the region invariant that tracks the accumulator, the pipeline's proof
  data — the fused gate/up matrix is read through TWO windows, so each of them holds half of that array's
  share — and the body obligation at every point.
-/
import proofs.«115090_j7808250544398_2_alg».proof.Proof.K.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S256x2048 .bf16) (x2 : Vec F S256x2048 .bf16) (x3 : Vec F S2048x256 .bf16) (y : S512x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x2048.size (by sl_kernel_rfl) y

/-- The accumulator after a point of inner coordinate 0. -/
def sout0_A_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S256x2048 .bf16) (x2 : Vec F S256x2048 .bf16) (x3 : Vec F S2048x256 .bf16) : Vec F S512x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

theorem scover0_B_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S256x2048 .bf16) (x2 : Vec F S256x2048 .bf16) (x3 : Vec F S2048x256 .bf16) (xs0 : Vec F S512x2048 .f32) (y : S512x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S512x2048.size (by sl_kernel_rfl) y

/-- The accumulator after a point of inner coordinate strictly between 0 and 21. -/
def sout0_B_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S256x2048 .bf16) (x2 : Vec F S256x2048 .bf16) (x3 : Vec F S2048x256 .bf16) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S512x2048.size (by sl_kernel_rfl) y

/-- The output block after a point of inner coordinate 21. -/
def out0_C_4 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) : Vec F S512x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x2048.size (by sl_kernel_rfl) y

/-- The accumulator after a point of inner coordinate 21. -/
def sout0_C_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## Point by point -/

/-- After the body at position `n`: the output block's staging contents (named only where the inner coordinate
    is 21; elsewhere the window is idle and the component is never consulted) and the accumulator. -/
def outsAt0 (c : Dev nD) : (n : ℕ) → n < cfg0.N → Vec F S512x2048 .f32 × Vec F S512x2048 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 22 = 0 then
      if h1 : (n + 1) % 22 = 21 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 22 = 21 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 22 = 0) (h1 : ¬t.val % 22 = 21) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 22 = 0) (h1 : ¬t.val % 22 = 21) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 22 = 0) (h1 : t.val % 22 = 21) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards
    what the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block, the output's at
    `outsAt0`; the invariant `PhiS`; nothing owed. The fused gate/up matrix is the array of windows 1 and 2: each
    holds one half of its share, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which case the point is
    in; the invariant hands the body the accumulator at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 352 := lt_of_lt_of_eq t.isLt (show cfg0.N = 352 from N_0)
  by_cases h0 : t.val % 22 = 0
  · have h1 : ¬t.val % 22 = 21 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 22 = 21
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- After the last point the accumulator's contents are forgotten again. -/
theorem hout (c : Dev nD) : (dats m 0 c).Φ (Fin.last cfg0.N) ⊢ Pipeline.ΦA spec0 c :=
  Phi_out m c _ (by rw [Fin.val_last]; have : cfg0.N = 352 := N_0; omega)

end Cert.Kernel.Fr

end
-- ==== Proof.K.Launch.lean ====
/-
  The frame of the expert kernel's program, second half: the launch. The fused gate/up matrix is the array of
  two input windows, so the buffer behind it is split in two halves of its share when the region is entered
  and joined again when it ends; every other array is held whole. The run then says what every unscoped buffer
  holds at the end: the arguments and their narrowed copies what they held when the region was entered, the
  result buffer what the sixteen write-backs left in it.
-/
import proofs.«115090_j7808250544398_2_alg».proof.Proof.K.Body

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region ends -/

/-- As at the region's entry, but for the result buffer, which holds what the write-backs left. -/
def V1 (c : Dev nD) : Valuation τ sig (Elt F) :=
  (StableHlo.nullary (τ := τ) main_v3 ((dats m 0 c).arrAt 4 cfg0.N)).result (V0 m c)

theorem V1_v3 (c : Dev nD) : V1 m c (Proc.devRef .tc main_v3) = (dats m 0 c).arrAt 4 cfg0.N :=
  StableHlo.nullary_result main_v3 _ _ _

theorem V1_ne (c : Dev nD) {r : Ref sig .tc} (h : r ≠ main_v3) : V1 m c (Proc.devRef .tc r) = V0 m c (Proc.devRef .tc r) :=
  StableHlo.nullary_result_ne _ _ _ _ h

/-- The proof data's arrays at contents `Fw` are the four distinct buffers behind them at contents `G`, when
    each window's contents are its buffer's: the two halves of the fused matrix's share make the whole. -/
theorem arrays_iff (c : Dev nD) (G : (b : Ref sig .tc) → Buf (Elt F) ((c.tc : Thread nD τ).loc b))
    (Fw : (w : Fin cfg0.W) → Buf (Elt F) ((cfg0.win w).arr.view.loc (c.tc : Thread nD τ)))
    (h : ∀ w, Fw w = G (Pipeline.arrRef spec0 w)) :
    ((dats m 0 c).arrays Fw : sProp 𝕄) ⊣⊢ Pipeline.arrBufs spec0 c G := by
  unfold Dat.arrays Pipeline.arrBufs
  rw [bigSep_W0, bigSep_eq_bigSepL_of_eq [main_v0, main_v1, main_v2, main_v3] (by decide) (by decide)]
  have hs : ∀ w : Fin 5, (cfg0.win w).arr.view.set = Finset.univ := fun w => (arr_whole0 w).set_eq_univ
  rw [hs 0, hs 1, hs 3, hs 4, h 0, h 1, h 2, h 3, h 4]
  show iprop((((c.tc : Thread nD τ).loc main_v0) ↦{fullShare} G main_v0) ∗ (((c.tc : Thread nD τ).loc main_v1) ↦{fullShare.left} G main_v1)
      ∗ (((c.tc : Thread nD τ).loc main_v1) ↦{fullShare.right} G main_v1) ∗ (((c.tc : Thread nD τ).loc main_v2) ↦{fullShare} G main_v2)
      ∗ (((c.tc : Thread nD τ).loc main_v3) ↦{fullShare} G main_v3))
    ⊣⊢ iprop((((c.tc : Thread nD τ).loc main_v0) ↦{fullShare} G main_v0) ∗ (((c.tc : Thread nD τ).loc main_v1) ↦{fullShare} G main_v1)
      ∗ (((c.tc : Thread nD τ).loc main_v2) ↦{fullShare} G main_v2) ∗ (((c.tc : Thread nD τ).loc main_v3) ↦{fullShare} G main_v3))
  constructor
  · iintro ⟨H0, H1, H2, H3, H4⟩
    isplitl [H0]; · iexact H0
    isplitl [H1 H2]
    · iapply (pointsTo_share (PosShare.mem_left_op_right fullShare)).2
      isplitl [H1] <;> iassumption
    isplitl [H3]; · iexact H3
    iexact H4
  · iintro ⟨H0, H1, H3, H4⟩
    ihave HA := (pointsTo_share (PosShare.mem_left_op_right fullShare)).1 $$ H1
    icases HA with ⟨H1, H2⟩
    isplitl [H0]; · iexact H0
    isplitl [H1]; · iexact H1
    isplitl [H2]; · iexact H2
    isplitl [H3]; · iexact H3
    iexact H4

/-! ## Entering and leaving the region -/

theorem hsplit (c : Dev nD) :
    (Pipeline.arrBufs spec0 c (fun b => V0 m c (Proc.devRef .tc b)) : sProp 𝕄) ⊢ (dats m 0 c).arrays ((dats m 0 c).arrAt · 0) :=
  (arrays_iff m c (fun b => V0 m c (Proc.devRef .tc b)) ((dats m 0 c).arrAt · 0) (fun w => A_eq m c w)).2

/-- Every window's array ends at what the buffers hold at the end: an input's array unchanged, the result's
    at what the write-backs left. -/
theorem harrN (c : Dev nD) (w : Fin cfg0.W) :
    V1 m c (Proc.devRef .tc (Pipeline.arrRef spec0 w)) = (dats m 0 c).arrAt w cfg0.N := by
  match w with
  | ⟨0, _⟩ => exact (V1_ne m c (show (main_v0 : Ref sig .tc) ≠ main_v3 by decide)).trans (((dats m 0 c).arrAt_in 0 rfl _).trans (A_eq m c 0)).symm
  | ⟨1, _⟩ => exact (V1_ne m c (show (main_v1 : Ref sig .tc) ≠ main_v3 by decide)).trans (((dats m 0 c).arrAt_in 1 rfl _).trans (A_eq m c 1)).symm
  | ⟨2, _⟩ => exact (V1_ne m c (show (main_v1 : Ref sig .tc) ≠ main_v3 by decide)).trans (((dats m 0 c).arrAt_in 2 rfl _).trans (A_eq m c 2)).symm
  | ⟨3, _⟩ => exact (V1_ne m c (show (main_v2 : Ref sig .tc) ≠ main_v3 by decide)).trans (((dats m 0 c).arrAt_in 3 rfl _).trans (A_eq m c 3)).symm
  | ⟨4, _⟩ => exact V1_v3 m c

theorem hexit (c : Dev nD) :
    ((dats m 0 c).arrays ((dats m 0 c).arrAt · cfg0.N) : sProp 𝕄) ⊣⊢ Pipeline.arrBufs spec0 c (fun b => V1 m c (Proc.devRef .tc b)) :=
  arrays_iff m c (fun b => V1 m c (Proc.devRef .tc b)) ((dats m 0 c).arrAt · cfg0.N) (fun w => (harrN m c w).symm)

/-- A buffer that is no window's array is not the result buffer: it ends as it was at the region's entry. -/
theorem hrest (c : Dev nD) (b : Ref sig .tc) (hb : b ∈ Pipeline.restRefs sig spec0) :
    V1 m c (Proc.devRef .tc b) = V0 m c (Proc.devRef .tc b) :=
  V1_ne m c (by rintro rfl; exact (Finset.mem_sdiff.mp hb).2 (Finset.mem_image.mpr ⟨4, Finset.mem_univ _, rfl⟩))

/-! ## The run -/

set_option backward.isDefEq.respectTransparency.types false in
/-- Every weakly fair execution of @main terminates without a fault, and every unscoped buffer ends at `V1`. -/
theorem run_main : θ_run defs (onTc (τ := τ) (main (F := F))) (s₀ m ρ) (fun r => ∀ c : Dev nD, ∀ b : Ref sig .tc, b.isScoped = false →
      r.2.mem ((c.tc : Thread nD τ).loc b) = StableHlo.after (([] : List (List (HloOp τ sig (Elt F)))).flatten) (V1 m c) (Proc.devRef .tc b)) :=
  Cert.Lib.SharedLaunch.θ_run_around_track_shared cfgs (dats m) (0 : Fin 1) defs₀ Variants.none cellOf_inj winFacts₀0 block_pos0 arr_whole0 stage_whole0
    m ρ main (hbody := fun c => (body_obligation m c).loose) (howed := fun _ _ => rfl) (V₀ := V0 m) (V₁ := V1 m) (opss := [])
    (hsub := fun ops h => absurd h List.not_mem_nil) (hfresh := fun ops h => absurd h List.not_mem_nil) (hkeep := fun _ _ => rfl)
    (hmain := hmain m Variants.none) (hsplit := hsplit m) (hexit := hexit m) (hrest := hrest m) (harrN := harrN m)
    (hin := hin m) (hout := hout m)

/-- The host conversions before the region write none of the three arguments. -/
theorem V0_arg0 (c : Dev nD) : V0 m c (Proc.devRef .tc main_arg0) = m ((c.tc : Thread nD τ).loc main_arg0) := by
  show StableHlo.after hostOps0 (fun b => m (c, b)) (Proc.devRef .tc main_arg0) = _
  after_results <;> rfl
theorem V0_arg1 (c : Dev nD) : V0 m c (Proc.devRef .tc main_arg1) = m ((c.tc : Thread nD τ).loc main_arg1) := by
  show StableHlo.after hostOps0 (fun b => m (c, b)) (Proc.devRef .tc main_arg1) = _
  after_results <;> rfl
theorem V0_arg2 (c : Dev nD) : V0 m c (Proc.devRef .tc main_arg2) = m ((c.tc : Thread nD τ).loc main_arg2) := by
  show StableHlo.after hostOps0 (fun b => m (c, b)) (Proc.devRef .tc main_arg2) = _
  after_results <;> rfl

/-- The run with the result buffer named and the three arguments unchanged. -/
theorem run_named : θ_run defs (onTc (τ := τ) (main (F := F))) ⟨m, fun _ => 0, ρ⟩ (fun r => ∀ c : Dev nD,
      r.2.mem ((c.tc : Thread nD τ).loc main_v3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_v3 rfl).trans (V1_v3 m c),
     (h c main_arg0 rfl).trans ((V1_ne m c (by decide)).trans (V0_arg0 m c)),
     (h c main_arg1 rfl).trans ((V1_ne m c (by decide)).trans (V0_arg1 m c)),
     (h c main_arg2 rfl).trans ((V1_ne m c (by decide)).trans (V0_arg2 m c))⟩) (run_main m ρ)

/-- The frame: the program runs to the end, nothing faults, and the three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ)

end Cert.Kernel.Fr

end
-- ==== Proof.KI.Runs.lean ====
/-
  What the three control cases of the expert kernel's body share: the buffer contents the region is entered
  with (the three arguments narrowed by the host, the result buffer as found), each window's block read off
  them, the two branch conditions of the body in closed form over the 16 × 22 grid (the accumulator is cleared
  where the inner coordinate is 0 and copied to the output block where it is 21), where the output window is
  idle, and the staging and scratch memrefs the body is called with.
-/
import proofs.«115090_j7808250544398_2_alg».proof.Proof.Gen.KernelIdeal.Launch
import proofs.«115090_j7808250544398_2_alg».proof.Proof.Gen.KernelIdeal.Skeleton
import proofs.«115090_j7808250544398_2_alg».proof.Proof.Gen.KernelIdeal.Points
import proofs.«115090_j7808250544398_2_alg».proof.Proof.LibSharedLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the three arguments narrowed to bf16 by the host. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three host conversions, then the region, then the return. -/
theorem hmain (𝒱₀ : Variants) : Pipeline.HMainK (Ix := Unit) (Name := ℕ) (U := UR sig nD τ) (Lvl := ℕ) cfgs 0 defs₀ 𝒱₀ m (main (F := F)) (V m)
      (fun _ => Pipeline.chain []) :=
  Pipeline.hmain_around cfgs 0 defs₀ 𝒱₀ m main [hostOps0] [] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is
    not fetched the block index has not moved. One lemma per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "The inner grid coordinate is 0": the accumulator is cleared first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 22 = 0 :=
  (by decide +kernel : ∀ t : Fin grid0.N, cond0_0 (grid0.coords t) ↔ t.val % 22 = 0)

/-- "The inner grid coordinate is 21": the accumulator is copied into the output block. -/
abbrev cond0_1 (i : grid0.Coords) : Prop := k0_cond2 i = 1#1
theorem hcond0_1 : ∀ t : Fin cfg0.N, cond0_1 (grid0.coords t) ↔ t.val % 22 = 21 :=
  (by decide +kernel : ∀ t : Fin grid0.N, cond0_1 (grid0.coords t) ↔ t.val % 22 = 21)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from the last inner coordinate the body stores nothing into the output block, and the pipeline does not
    write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S512x2048 .f32 := (Memref.whole cc0_stg4_0 : Memref sig .tc .vmem S512x2048 .f32).view
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S512x2048 .f32 := Memref.whole cc0_scratch0
abbrev VS0_0 : View sig .tc .vmem S512x2048 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body at a point whose inner coordinate is 0 (and not 21): the accumulator, whatever it held, is
  cleared and then receives this tile's contribution; the output block is not touched. The pieces the
  accumulator ends with are found by running the body.
-/
import proofs.«115090_j7808250544398_2_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S256x2048 .bf16) (x2 : Vec F S256x2048 .bf16) (x3 : Vec F S2048x256 .bf16) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_kernel i arg2 harg2 arg3 harg3 arg4 harg4 arg5 harg5 arg6 harg6 arg7 harg7) K } := by
  refine ⟨[], ?_, fun xi4 E K => ?run⟩
  case run =>
    simp only [cc0__expert_kernel_eq_skeleton]; unfold cc0__expert_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.RunB.lean ====
/-
  The body at a point whose inner coordinate is neither 0 nor 21: the accumulator, holding what the point
  before left, receives this tile's contribution; the output block is not touched.
-/
import proofs.«115090_j7808250544398_2_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S256x2048 .bf16) (x2 : Vec F S256x2048 .bf16) (x3 : Vec F S2048x256 .bf16) (xs0 : Vec F S512x2048 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_kernel i arg2 harg2 arg3 harg3 arg4 harg4 arg5 harg5 arg6 harg6 arg7 harg7) K } := by
  refine ⟨[], ?_, fun xi4 E K => ?run⟩
  case run =>
    simp only [cc0__expert_kernel_eq_skeleton]; unfold cc0__expert_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.RunC.lean ====
/-
  The body at a point whose inner coordinate is 21: the accumulator receives the last tile's contribution
  and is then copied, whole, into the output block.
-/
import proofs.«115090_j7808250544398_2_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) :
    Σ' (L4 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__expert_kernel i arg2 harg2 arg3 harg3 arg4 harg4 arg5 harg5 arg6 harg6 arg7 harg7) K } := by
  refine ⟨?_, ?_, fun E K => ?run⟩
  case run =>
    simp only [cc0__expert_kernel_eq_skeleton]; unfold cc0__expert_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KI.Body.lean ====
/-
  The frame of the expert kernel's program, first half: what the accumulator and the output block hold after
  every grid point (by recursion on the point: cleared and filled at inner coordinate 0, added to afterwards,
  copied out at inner coordinate 21), the region invariant that tracks the accumulator, the pipeline's proof
  data — the fused gate/up matrix is read through TWO windows, so each of them holds half of that array's
  share — and the body obligation at every point.
-/
import proofs.«115090_j7808250544398_2_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S256x2048 .bf16) (x2 : Vec F S256x2048 .bf16) (x3 : Vec F S2048x256 .bf16) (y : S512x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x2048.size (by sl_kernel_rfl) y

/-- The accumulator after a point of inner coordinate 0. -/
def sout0_A_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S256x2048 .bf16) (x2 : Vec F S256x2048 .bf16) (x3 : Vec F S2048x256 .bf16) : Vec F S512x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

theorem scover0_B_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S256x2048 .bf16) (x2 : Vec F S256x2048 .bf16) (x3 : Vec F S2048x256 .bf16) (xs0 : Vec F S512x2048 .f32) (y : S512x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S512x2048.size (by sl_kernel_rfl) y

/-- The accumulator after a point of inner coordinate strictly between 0 and 21. -/
def sout0_B_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S256x2048 .bf16) (x2 : Vec F S256x2048 .bf16) (x3 : Vec F S2048x256 .bf16) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S512x2048.size (by sl_kernel_rfl) y

/-- The output block after a point of inner coordinate 21. -/
def out0_C_4 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) : Vec F S512x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x2048.size (by sl_kernel_rfl) y

/-- The accumulator after a point of inner coordinate 21. -/
def sout0_C_0 (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## Point by point -/

/-- After the body at position `n`: the output block's staging contents (named only where the inner coordinate
    is 21; elsewhere the window is idle and the component is never consulted) and the accumulator. -/
def outsAt0 (c : Dev nD) : (n : ℕ) → n < cfg0.N → Vec F S512x2048 .f32 × Vec F S512x2048 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 22 = 0 then
      if h1 : (n + 1) % 22 = 21 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 22 = 21 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 22 = 0) (h1 : ¬t.val % 22 = 21) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 22 = 0) (h1 : ¬t.val % 22 = 21) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 22 = 0) (h1 : t.val % 22 = 21) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards
    what the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block, the output's at
    `outsAt0`; the invariant `PhiS`; nothing owed. The fused gate/up matrix is the array of windows 1 and 2: each
    holds one half of its share, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which case the point is
    in; the invariant hands the body the accumulator at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 352 := lt_of_lt_of_eq t.isLt (show cfg0.N = 352 from N_0)
  by_cases h0 : t.val % 22 = 0
  · have h1 : ¬t.val % 22 = 21 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 22 = 21
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- After the last point the accumulator's contents are forgotten again. -/
theorem hout (c : Dev nD) : (dats m 0 c).Φ (Fin.last cfg0.N) ⊢ Pipeline.ΦA spec0 c :=
  Phi_out m c _ (by rw [Fin.val_last]; have : cfg0.N = 352 := N_0; omega)

end Cert.KernelIdeal.Fr

end
-- ==== Proof.KI.Launch.lean ====
/-
  The frame of the expert kernel's program, second half: the launch. The fused gate/up matrix is the array of
  two input windows, so the buffer behind it is split in two halves of its share when the region is entered
  and joined again when it ends; every other array is held whole. The run then says what every unscoped buffer
  holds at the end: the arguments and their narrowed copies what they held when the region was entered, the
  result buffer what the sixteen write-backs left in it.
-/
import proofs.«115090_j7808250544398_2_alg».proof.Proof.KI.Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region ends -/

/-- As at the region's entry, but for the result buffer, which holds what the write-backs left. -/
def V1 (c : Dev nD) : Valuation τ sig (Elt F) :=
  (StableHlo.nullary (τ := τ) main_v3 ((dats m 0 c).arrAt 4 cfg0.N)).result (V0 m c)

theorem V1_v3 (c : Dev nD) : V1 m c (Proc.devRef .tc main_v3) = (dats m 0 c).arrAt 4 cfg0.N :=
  StableHlo.nullary_result main_v3 _ _ _

theorem V1_ne (c : Dev nD) {r : Ref sig .tc} (h : r ≠ main_v3) : V1 m c (Proc.devRef .tc r) = V0 m c (Proc.devRef .tc r) :=
  StableHlo.nullary_result_ne _ _ _ _ h

/-- The proof data's arrays at contents `Fw` are the four distinct buffers behind them at contents `G`, when
    each window's contents are its buffer's: the two halves of the fused matrix's share make the whole. -/
theorem arrays_iff (c : Dev nD) (G : (b : Ref sig .tc) → Buf (Elt F) ((c.tc : Thread nD τ).loc b))
    (Fw : (w : Fin cfg0.W) → Buf (Elt F) ((cfg0.win w).arr.view.loc (c.tc : Thread nD τ)))
    (h : ∀ w, Fw w = G (Pipeline.arrRef spec0 w)) :
    ((dats m 0 c).arrays Fw : sProp 𝕄) ⊣⊢ Pipeline.arrBufs spec0 c G := by
  unfold Dat.arrays Pipeline.arrBufs
  rw [bigSep_W0, bigSep_eq_bigSepL_of_eq [main_v0, main_v1, main_v2, main_v3] (by decide) (by decide)]
  have hs : ∀ w : Fin 5, (cfg0.win w).arr.view.set = Finset.univ := fun w => (arr_whole0 w).set_eq_univ
  rw [hs 0, hs 1, hs 3, hs 4, h 0, h 1, h 2, h 3, h 4]
  show iprop((((c.tc : Thread nD τ).loc main_v0) ↦{fullShare} G main_v0) ∗ (((c.tc : Thread nD τ).loc main_v1) ↦{fullShare.left} G main_v1)
      ∗ (((c.tc : Thread nD τ).loc main_v1) ↦{fullShare.right} G main_v1) ∗ (((c.tc : Thread nD τ).loc main_v2) ↦{fullShare} G main_v2)
      ∗ (((c.tc : Thread nD τ).loc main_v3) ↦{fullShare} G main_v3))
    ⊣⊢ iprop((((c.tc : Thread nD τ).loc main_v0) ↦{fullShare} G main_v0) ∗ (((c.tc : Thread nD τ).loc main_v1) ↦{fullShare} G main_v1)
      ∗ (((c.tc : Thread nD τ).loc main_v2) ↦{fullShare} G main_v2) ∗ (((c.tc : Thread nD τ).loc main_v3) ↦{fullShare} G main_v3))
  constructor
  · iintro ⟨H0, H1, H2, H3, H4⟩
    isplitl [H0]; · iexact H0
    isplitl [H1 H2]
    · iapply (pointsTo_share (PosShare.mem_left_op_right fullShare)).2
      isplitl [H1] <;> iassumption
    isplitl [H3]; · iexact H3
    iexact H4
  · iintro ⟨H0, H1, H3, H4⟩
    ihave HA := (pointsTo_share (PosShare.mem_left_op_right fullShare)).1 $$ H1
    icases HA with ⟨H1, H2⟩
    isplitl [H0]; · iexact H0
    isplitl [H1]; · iexact H1
    isplitl [H2]; · iexact H2
    isplitl [H3]; · iexact H3
    iexact H4

/-! ## Entering and leaving the region -/

theorem hsplit (c : Dev nD) :
    (Pipeline.arrBufs spec0 c (fun b => V0 m c (Proc.devRef .tc b)) : sProp 𝕄) ⊢ (dats m 0 c).arrays ((dats m 0 c).arrAt · 0) :=
  (arrays_iff m c (fun b => V0 m c (Proc.devRef .tc b)) ((dats m 0 c).arrAt · 0) (fun w => A_eq m c w)).2

/-- Every window's array ends at what the buffers hold at the end: an input's array unchanged, the result's
    at what the write-backs left. -/
theorem harrN (c : Dev nD) (w : Fin cfg0.W) :
    V1 m c (Proc.devRef .tc (Pipeline.arrRef spec0 w)) = (dats m 0 c).arrAt w cfg0.N := by
  match w with
  | ⟨0, _⟩ => exact (V1_ne m c (show (main_v0 : Ref sig .tc) ≠ main_v3 by decide)).trans (((dats m 0 c).arrAt_in 0 rfl _).trans (A_eq m c 0)).symm
  | ⟨1, _⟩ => exact (V1_ne m c (show (main_v1 : Ref sig .tc) ≠ main_v3 by decide)).trans (((dats m 0 c).arrAt_in 1 rfl _).trans (A_eq m c 1)).symm
  | ⟨2, _⟩ => exact (V1_ne m c (show (main_v1 : Ref sig .tc) ≠ main_v3 by decide)).trans (((dats m 0 c).arrAt_in 2 rfl _).trans (A_eq m c 2)).symm
  | ⟨3, _⟩ => exact (V1_ne m c (show (main_v2 : Ref sig .tc) ≠ main_v3 by decide)).trans (((dats m 0 c).arrAt_in 3 rfl _).trans (A_eq m c 3)).symm
  | ⟨4, _⟩ => exact V1_v3 m c

theorem hexit (c : Dev nD) :
    ((dats m 0 c).arrays ((dats m 0 c).arrAt · cfg0.N) : sProp 𝕄) ⊣⊢ Pipeline.arrBufs spec0 c (fun b => V1 m c (Proc.devRef .tc b)) :=
  arrays_iff m c (fun b => V1 m c (Proc.devRef .tc b)) ((dats m 0 c).arrAt · cfg0.N) (fun w => (harrN m c w).symm)

/-- A buffer that is no window's array is not the result buffer: it ends as it was at the region's entry. -/
theorem hrest (c : Dev nD) (b : Ref sig .tc) (hb : b ∈ Pipeline.restRefs sig spec0) :
    V1 m c (Proc.devRef .tc b) = V0 m c (Proc.devRef .tc b) :=
  V1_ne m c (by rintro rfl; exact (Finset.mem_sdiff.mp hb).2 (Finset.mem_image.mpr ⟨4, Finset.mem_univ _, rfl⟩))

/-! ## The run -/

set_option backward.isDefEq.respectTransparency.types false in
/-- Every weakly fair execution of @main terminates without a fault, and every unscoped buffer ends at `V1`. -/
theorem run_main : θ_run defs (onTc (τ := τ) (main (F := F))) (s₀ m ρ) (fun r => ∀ c : Dev nD, ∀ b : Ref sig .tc, b.isScoped = false →
      r.2.mem ((c.tc : Thread nD τ).loc b) = StableHlo.after (([] : List (List (HloOp τ sig (Elt F)))).flatten) (V1 m c) (Proc.devRef .tc b)) :=
  Cert.Lib.SharedLaunch.θ_run_around_track_shared cfgs (dats m) (0 : Fin 1) defs₀ Variants.none cellOf_inj winFacts₀0 block_pos0 arr_whole0 stage_whole0
    m ρ main (hbody := fun c => (body_obligation m c).loose) (howed := fun _ _ => rfl) (V₀ := V0 m) (V₁ := V1 m) (opss := [])
    (hsub := fun ops h => absurd h List.not_mem_nil) (hfresh := fun ops h => absurd h List.not_mem_nil) (hkeep := fun _ _ => rfl)
    (hmain := hmain m Variants.none) (hsplit := hsplit m) (hexit := hexit m) (hrest := hrest m) (harrN := harrN m)
    (hin := hin m) (hout := hout m)

/-- The host conversions before the region write none of the three arguments. -/
theorem V0_arg0 (c : Dev nD) : V0 m c (Proc.devRef .tc main_arg0) = m ((c.tc : Thread nD τ).loc main_arg0) := by
  show StableHlo.after hostOps0 (fun b => m (c, b)) (Proc.devRef .tc main_arg0) = _
  after_results <;> rfl
theorem V0_arg1 (c : Dev nD) : V0 m c (Proc.devRef .tc main_arg1) = m ((c.tc : Thread nD τ).loc main_arg1) := by
  show StableHlo.after hostOps0 (fun b => m (c, b)) (Proc.devRef .tc main_arg1) = _
  after_results <;> rfl
theorem V0_arg2 (c : Dev nD) : V0 m c (Proc.devRef .tc main_arg2) = m ((c.tc : Thread nD τ).loc main_arg2) := by
  show StableHlo.after hostOps0 (fun b => m (c, b)) (Proc.devRef .tc main_arg2) = _
  after_results <;> rfl

/-- The run with the result buffer named and the three arguments unchanged. -/
theorem run_named : θ_run defs (onTc (τ := τ) (main (F := F))) ⟨m, fun _ => 0, ρ⟩ (fun r => ∀ c : Dev nD,
      r.2.mem ((c.tc : Thread nD τ).loc main_v3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_v3 rfl).trans (V1_v3 m c),
     (h c main_arg0 rfl).trans ((V1_ne m c (by decide)).trans (V0_arg0 m c)),
     (h c main_arg1 rfl).trans ((V1_ne m c (by decide)).trans (V0_arg1 m c)),
     (h c main_arg2 rfl).trans ((V1_ne m c (by decide)).trans (V0_arg2 m c))⟩) (run_main m ρ)

/-- The frame: the program runs to the end, nothing faults, and the three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ)

end Cert.KernelIdeal.Fr

end
-- ==== Proof.KI.Pieces.lean ====
/-
  What each control case of the body leaves, as arithmetic of the blocks it is entered with: the one value every
  case stores into the accumulator is the step's payload `k0_pay2` of the four input blocks and of what the
  accumulator held when the payload was computed: the zero block at inner coordinate 0 (the body has just
  cleared it), and otherwise what the point before left. At inner coordinate 21 the output block receives
  a copy of the accumulator just stored.
-/
import proofs.«115090_j7808250544398_2_alg».proof.Proof.KI.Body
import Idealize.ShloMosaic.Lib.Pipeline.Value

set_option maxRecDepth 16384

noncomputable section

open scoped BigOperators

namespace Cert.KernelIdeal.Val

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Fr

variable {F : FTy → Type} [FloatOps F]

/-- Every load and store of the body is at the origin of its buffer. -/
theorem hz : (![0, 0] : Fin 2 → Nat) = fun _ => 0 := funext fun a => by fin_cases a <;> rfl

/-- Inner coordinate strictly between 0 and 21: the accumulator receives the payload over what it held. -/
theorem soutB_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i) (x0 : Vec F S512x2048 .bf16) (x1 : Vec F S256x2048 .bf16) (x2 : Vec F S256x2048 .bf16) (x3 : Vec F S2048x256 .bf16) (xs0 : Vec F S512x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  try sl_unfold_words
  rw [View.canon_unit_zero hz]
  simp only [View.readAt_eq_ld, harg2.read_unread, harg3.read_unread, harg4.read_unread, harg5.read_unread, harg7.read_unread, View.ld_unit_zero (S := S512x2048) hz, View.ld_unit_zero (S := S256x2048) hz, View.ld_unit_zero (S := S2048x256) hz]

/-- Inner coordinate 0: the accumulator is cleared first, so it receives the payload over the zero block. -/
theorem soutA_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i) (x0 : Vec F S512x2048 .bf16) (x1 : Vec F S256x2048 .bf16) (x2 : Vec F S256x2048 .bf16) (x3 : Vec F S2048x256 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg7.read_unread, View.ld_unit_zero (S := S512x2048) hz, View.ld_unit_zero (S := S256x2048) hz, View.ld_unit_zero (S := S2048x256) hz]

/-- Inner coordinate 21: the accumulator receives the payload over what it held, as in between. -/
theorem soutC_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x2048 .bf16) (x1 : Vec F S256x2048 .bf16) (x2 : Vec F S256x2048 .bf16) (x3 : Vec F S2048x256 .bf16) (xs0 : Vec F S512x2048 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  try sl_unfold_words
  rw [View.canon_unit_zero hz]
  simp only [View.readAt_eq_ld, harg2.read_unread, harg3.read_unread, harg4.read_unread, harg5.read_unread, harg7.read_unread, View.ld_unit_zero (S := S512x2048) hz, View.ld_unit_zero (S := S256x2048) hz, View.ld_unit_zero (S := S2048x256) hz]

/-- Inner coordinate 21: the output block receives a copy of the accumulator just stored. -/
theorem outC_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x2048 .bf16) (x1 : Vec F S256x2048 .bf16) (x2 : Vec F S256x2048 .bf16) (x3 : Vec F S2048x256 .bf16) (xs0 : Vec F S512x2048 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg7.read_unread, View.ld_unit_zero (S := S512x2048) hz, View.ld_unit_zero (S := S256x2048) hz, View.ld_unit_zero (S := S2048x256) hz]

end Cert.KernelIdeal.Val

end
-- ==== Proof.KI.Blocks.lean ====
/-
  Each input block as entries of the arrays the region finds, and those arrays as the host's narrowing of the
  three arguments. Point `t` of the 16 × 22 grid has outer coordinate `t / 22` (which 512 token rows) and
  inner coordinate `t % 22` (which tile of 256 hidden units).
-/
import proofs.«115090_j7808250544398_2_alg».proof.Proof.KI.Runs
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Val

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Fr

open Idealize.ShloMosaic.ValueIdx
variable {F : FTy → Type} [FloatOps F]
variable (m : (ℓ : Loc nD τ sig) → Buf (Elt F) ℓ)

/-- The region finds the token array narrowed by the host. -/
theorem V_v0 (c : Dev nD) : (V m c main_v0 : S8192x2048.Idx → F .bf16) = truncf .bf16 (m ((c.tc : Thread nD τ).loc main_arg0) : S8192x2048.Idx → F .f32) bitsLt_bf16_f32 := by
  show StableHlo.after hostOps0 (fun b => m (c, b)) (Proc.devRef .tc main_v0) = _
  after_results
/-- The region finds the fused gate/up matrix narrowed by the host. -/
theorem V_v1 (c : Dev nD) : (V m c main_v1 : S11264x2048.Idx → F .bf16) = truncf .bf16 (m ((c.tc : Thread nD τ).loc main_arg1) : S11264x2048.Idx → F .f32) bitsLt_bf16_f32 := by
  show StableHlo.after hostOps0 (fun b => m (c, b)) (Proc.devRef .tc main_v1) = _
  after_results
/-- The region finds the down matrix narrowed by the host. -/
theorem V_v2 (c : Dev nD) : (V m c main_v2 : S2048x5632.Idx → F .bf16) = truncf .bf16 (m ((c.tc : Thread nD τ).loc main_arg2) : S2048x5632.Idx → F .f32) bitsLt_bf16_f32 := by
  show StableHlo.after hostOps0 (fun b => m (c, b)) (Proc.devRef .tc main_v2) = _
  after_results

/-- The five index maps over the 16 × 22 grid, point `t` having outer coordinate `t / 22` and inner coordinate
    `t % 22`: the token block and the output block follow the outer coordinate, the gate block, the up block
    (22 blocks further down the fused matrix) and the down block (along its columns) the inner one. -/
theorem idx_facts : ∀ t : Fin cfg0.N, win0_0.index t (0 : Fin 2) = t.val / 22 ∧ win0_0.index t (1 : Fin 2) = 0
    ∧ win0_1.index t (0 : Fin 2) = t.val % 22 ∧ win0_1.index t (1 : Fin 2) = 0
    ∧ win0_2.index t (0 : Fin 2) = 22 + t.val % 22 ∧ win0_2.index t (1 : Fin 2) = 0
    ∧ win0_3.index t (0 : Fin 2) = 0 ∧ win0_3.index t (1 : Fin 2) = t.val % 22
    ∧ win0_4.index t (0 : Fin 2) = t.val / 22 ∧ win0_4.index t (1 : Fin 2) = 0 :=
  (by decide +kernel : ∀ t : Fin grid0.N, _)

/-- The token block at point `t`, row `p`: row `(t / 22) · 512 + p` of the array the region finds. -/
theorem iblk0_V (c : Dev nD) (t : Fin cfg0.N) (p : Fin 512) (h : Fin 2048) (k : S8192x2048.Idx)
    (hk0 : (k 0).val = (t.val / 22) * 512 + p.val) (hk1 : (k 1).val = h.val) :
    (iblk m c 0 t : Vec F S512x2048 .bf16) (ix2 p h) = (V m c main_v0 : S8192x2048.Idx → F .bf16) k := by
  obtain ⟨e0, e1, -⟩ := idx_facts t
  unfold iblk
  rw [View.read_apply]
  show (V m c main_v0 : S8192x2048.Idx → F .bf16) (((cfg0.win 0).blk t).view.emb (ix2 p h)) = _
  refine congrArg (V m c main_v0 : S8192x2048.Idx → F .bf16) (funext fun a => Fin.ext ?_)
  match a with
  | ⟨0, _⟩ => show win0_0.index t (0 : Fin 2) * 512 + 1 * p.val = (k 0).val; rw [e0, hk0]; omega
  | ⟨1, _⟩ => show win0_0.index t (1 : Fin 2) * 2048 + 1 * h.val = (k 1).val; rw [e1, hk1]; omega

/-- The gate block at point `t`, row `j`: row `(t % 22) · 256 + j` of the fused matrix. -/
theorem iblk1_V (c : Dev nD) (t : Fin cfg0.N) (j : Fin 256) (h : Fin 2048) (k : S11264x2048.Idx)
    (hk0 : (k 0).val = (t.val % 22) * 256 + j.val) (hk1 : (k 1).val = h.val) :
    (iblk m c 1 t : Vec F S256x2048 .bf16) (ix2 j h) = (V m c main_v1 : S11264x2048.Idx → F .bf16) k := by
  obtain ⟨-, -, e0, e1, -⟩ := idx_facts t
  unfold iblk
  rw [View.read_apply]
  show (V m c main_v1 : S11264x2048.Idx → F .bf16) (((cfg0.win 1).blk t).view.emb (ix2 j h)) = _
  refine congrArg (V m c main_v1 : S11264x2048.Idx → F .bf16) (funext fun a => Fin.ext ?_)
  match a with
  | ⟨0, _⟩ => show win0_1.index t (0 : Fin 2) * 256 + 1 * j.val = (k 0).val; rw [e0, hk0]; omega
  | ⟨1, _⟩ => show win0_1.index t (1 : Fin 2) * 2048 + 1 * h.val = (k 1).val; rw [e1, hk1]; omega

/-- The up block at point `t`, row `j`: row `(22 + t % 22) · 256 + j` of the fused matrix. -/
theorem iblk2_V (c : Dev nD) (t : Fin cfg0.N) (j : Fin 256) (h : Fin 2048) (k : S11264x2048.Idx)
    (hk0 : (k 0).val = (22 + t.val % 22) * 256 + j.val) (hk1 : (k 1).val = h.val) :
    (iblk m c 2 t : Vec F S256x2048 .bf16) (ix2 j h) = (V m c main_v1 : S11264x2048.Idx → F .bf16) k := by
  obtain ⟨-, -, -, -, e0, e1, -⟩ := idx_facts t
  unfold iblk
  rw [View.read_apply]
  show (V m c main_v1 : S11264x2048.Idx → F .bf16) (((cfg0.win 2).blk t).view.emb (ix2 j h)) = _
  refine congrArg (V m c main_v1 : S11264x2048.Idx → F .bf16) (funext fun a => Fin.ext ?_)
  match a with
  | ⟨0, _⟩ => show win0_2.index t (0 : Fin 2) * 256 + 1 * j.val = (k 0).val; rw [e0, hk0]; omega
  | ⟨1, _⟩ => show win0_2.index t (1 : Fin 2) * 2048 + 1 * h.val = (k 1).val; rw [e1, hk1]; omega

/-- The down block at point `t`, column `j`: column `(t % 22) · 256 + j` of the down matrix. -/
theorem iblk3_V (c : Dev nD) (t : Fin cfg0.N) (o : Fin 2048) (j : Fin 256) (k : S2048x5632.Idx)
    (hk0 : (k 0).val = o.val) (hk1 : (k 1).val = (t.val % 22) * 256 + j.val) :
    (iblk m c 3 t : Vec F S2048x256 .bf16) (ix2 o j) = (V m c main_v2 : S2048x5632.Idx → F .bf16) k := by
  obtain ⟨-, -, -, -, -, -, e0, e1, -⟩ := idx_facts t
  unfold iblk
  rw [View.read_apply]
  show (V m c main_v2 : S2048x5632.Idx → F .bf16) (((cfg0.win 3).blk t).view.emb (ix2 o j)) = _
  refine congrArg (V m c main_v2 : S2048x5632.Idx → F .bf16) (funext fun a => Fin.ext ?_)
  match a with
  | ⟨0, _⟩ => show win0_3.index t (0 : Fin 2) * 2048 + 1 * o.val = (k 0).val; rw [e0, hk0]; omega
  | ⟨1, _⟩ => show win0_3.index t (1 : Fin 2) * 256 + 1 * j.val = (k 1).val; rw [e1, hk1]; omega

end Cert.KernelIdeal.Val

end
-- ==== Proof.Spec.lean ====
/-
  The mathematics of the fused SwiGLU expert, stated once, with no program in sight.

  For a token row `t` the expert projects `x[t, ·]` on the 11264 rows of the fused gate/up matrix,
  `proj t o = Σ_h x[t,h] · w[o,h]`; row `i < 5632` is gate `i`, row `5632 + i` is up `i`. The hidden unit is
  `hidden t i = (g · logistic g) · u` with `g = proj t i`, `u = proj t (5632 + i)`, and the result is
  `G[t, o] = Σ_i hidden t i · d[o, i]` over all 5632 hidden units. Everything is on the extended reals: the
  sums are finite sums in a commutative additive monoid, so they may be cut into tiles and re-joined in any
  order with no finiteness hypothesis.
-/
import Idealize.ShloMosaic.PureOps.Ideal
import Idealize.ShloMosaic.Lib.ValueIdx

noncomputable section

open scoped BigOperators

namespace Cert.Swiglu

open Idealize.ShloMosaic Idealize.ShloMosaic.ValueIdx

/-- Tokens × hidden size. -/
abbrev SX : Shape := ⟨2, ![8192, 2048]⟩
/-- Fused gate/up rows × hidden size. -/
abbrev SW : Shape := ⟨2, ![11264, 2048]⟩
/-- Output features × intermediate size. -/
abbrev SD : Shape := ⟨2, ![2048, 5632]⟩

/-- Token row `t` against row `o` of the fused gate/up matrix. -/
def proj (x : FVec Ideal SX .f32) (w : FVec Ideal SW .f32) (t : Fin 8192) (o : Fin 11264) : EReal :=
  ∑ h : Fin 2048, x (ix2 t h) * w (ix2 o h)

/-- The gate row of hidden unit `i`. -/
def gateRow (i : Fin 5632) : Fin 11264 := ⟨i.val, by omega⟩
/-- The up row of hidden unit `i`: the second half of the fused matrix. -/
def upRow (i : Fin 5632) : Fin 11264 := ⟨5632 + i.val, by omega⟩

/-- The hidden activation `silu(gate) · up`, with `silu g = g · logistic g`. -/
def hidden (x : FVec Ideal SX .f32) (w : FVec Ideal SW .f32) (t : Fin 8192) (i : Fin 5632) : EReal :=
  (proj x w t (gateRow i) * Ideal.logistic (proj x w t (gateRow i))) * proj x w t (upRow i)

/-- The expert's output: the hidden activations against the rows of the down matrix. -/
def G (x : FVec Ideal SX .f32) (w : FVec Ideal SW .f32) (d : FVec Ideal SD .f32) : FVec Ideal SX .f32 :=
  fun j => ∑ i : Fin 5632, hidden x w (j 0) i * d (ix2 (j 1) i)

theorem G_apply (x : FVec Ideal SX .f32) (w : FVec Ideal SW .f32) (d : FVec Ideal SD .f32) (t : Fin 8192) (o : Fin 2048) :
    G x w d (ix2 t o) = ∑ i : Fin 5632, hidden x w t i * d (ix2 o i) := rfl

end Cert.Swiglu

end
-- ==== Proof.TileValue.lean ====
/-
  One grid step's arithmetic read at an index, on the extended reals. The first step stores the zero
  block. Every step adds to the block it finds, at row `p` and output feature `o`, the sum over the 256
  places `j` of its tile of `(g · logistic g) · u` times the down block's entry `(o, j)`, where `g` and `u`
  are the sums over the 2048 hidden coordinates of the token block's row `p` against row `j` of the gate
  block and of the up block. The format changes are the identity on the extended reals and the three
  products accumulate into zero blocks.
-/
import proofs.«115090_j7808250544398_2_alg».proof.Proof.Spec
import proofs.«115090_j7808250544398_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.TileValue

open Idealize.ShloMosaic Idealize.ShloMosaic.ValueIdx Cert.KernelIdeal Cert.KernelIdeal.Gen

/-- The block the first step stores is zero everywhere. -/
theorem pay1_apply (i : S512x2048.Idx) : k0_pay1 (F := Ideal) i = 0 := by
  unfold k0_pay1
  simp only [shapeCast_self]
  exact Ideal.ofBits_zero_f32

/-- The left operand of a projection product is read at the output's row. -/
theorem lhsA_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
/-- The right operand of a projection product is read at the row the output's column names. -/
theorem rhsA_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl

/-- A projection product into the zero block, at row `p` and place `j`: row `p` of the left block against row `j` of the
    right block, summed over the 2048 hidden coordinates. -/
theorem dotA_apply (l : FVec Ideal S512x2048 .bf16) (r : FVec Ideal S256x2048 .bf16) (p : Fin 512) (j : Fin 256) :
    matmul dot_S512x2048_S256x2048_S512x256_1_1_0_0_n_n none l r (constant S512x256 .f32 0x00000000#32) (ix2 p j)
      = ∑ h : Fin 2048, l (ix2 p h) * r (ix2 j h) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 p j) ((ValueIdx.contrEquiv1 dot_S512x2048_S256x2048_S512x256_1_1_0_0_n_n 2048 rfl rfl).symm k) = ix2 p k := funext fun a => Fin.ext (by
    match a with
    | ⟨0, _⟩ => exact lhsA_0 _ _
    | ⟨1, _⟩ => exact (dot_S512x2048_S256x2048_S512x256_1_1_0_0_n_n.lhsIdx_val_of_single rfl _ _).trans hk)
  have er : dot_S512x2048_S256x2048_S512x256_1_1_0_0_n_n.rhsIdx (ix2 p j) ((ValueIdx.contrEquiv1 dot_S512x2048_S256x2048_S512x256_1_1_0_0_n_n 2048 rfl rfl).symm k) = ix2 j k := funext fun a => Fin.ext (by
    match a with
    | ⟨0, _⟩ => exact rhsA_0 _ _
    | ⟨1, _⟩ => exact (dot_S512x2048_S256x2048_S512x256_1_1_0_0_n_n.rhsIdx_val_of_single rfl _ _).trans hk)
  rw [el, er]

/-- The left operand of the down product is read at the output's row. -/
theorem lhsB_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
/-- The right operand of the down product is read at the row the output's column names. -/
theorem rhsB_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl

/-- The down product into the zero block, at row `p` and output feature `o`: row `p` of the hidden block against row `o`
    of the down block, summed over the tile's 256 places. -/
theorem dotB_apply (l : FVec Ideal S512x256 .bf16) (r : FVec Ideal S2048x256 .bf16) (p : Fin 512) (o : Fin 2048) :
    matmul dot_S512x256_S2048x256_S512x2048_1_1_0_0_n_n none l r (constant S512x2048 .f32 0x00000000#32) (ix2 p o)
      = ∑ j : Fin 256, l (ix2 p j) * r (ix2 o j) := by
  simp only [matmul]
  rw [Ideal.matmul_constant_zero_apply, ← Equiv.sum_comp (ValueIdx.contrEquiv1 dot_S512x256_S2048x256_S512x2048_1_1_0_0_n_n 256 rfl rfl).symm]
  refine Finset.sum_congr rfl fun k _ => ?_
  have hk := ValueIdx.contrEquiv1_symm_val dot_S512x256_S2048x256_S512x2048_1_1_0_0_n_n 256 rfl rfl k
  have el : dot_S512x256_S2048x256_S512x2048_1_1_0_0_n_n.lhsIdx (ix2 p o) ((ValueIdx.contrEquiv1 dot_S512x256_S2048x256_S512x2048_1_1_0_0_n_n 256 rfl rfl).symm k) = ix2 p k := funext fun a => Fin.ext (by
    match a with
    | ⟨0, _⟩ => exact lhsB_0 _ _
    | ⟨1, _⟩ => exact (dot_S512x256_S2048x256_S512x2048_1_1_0_0_n_n.lhsIdx_val_of_single rfl _ _).trans hk)
  have er : dot_S512x256_S2048x256_S512x2048_1_1_0_0_n_n.rhsIdx (ix2 p o) ((ValueIdx.contrEquiv1 dot_S512x256_S2048x256_S512x2048_1_1_0_0_n_n 256 rfl rfl).symm k) = ix2 o k := funext fun a => Fin.ext (by
    match a with
    | ⟨0, _⟩ => exact rhsB_0 _ _
    | ⟨1, _⟩ => exact (dot_S512x256_S2048x256_S512x2048_1_1_0_0_n_n.rhsIdx_val_of_single rfl _ _).trans hk)
  rw [el, er]

/-- The logistic of a block at an index is the logistic function of the element. -/
theorem logistic_apply {s : Shape} {φ : FTy} (a : FVec Ideal s φ) (i : s.Idx) : logistic a i = Ideal.logistic (a i) := rfl

/-- What a step stores, at row `p` and output feature `o`: the block it found plus its tile's share of the sum over
    the hidden units. -/
theorem pay2_apply (v3 : Vec Ideal S512x2048 .bf16) (v5 v7 : Vec Ideal S256x2048 .bf16) (v15 : Vec Ideal S2048x256 .bf16) (v18 : Vec Ideal S512x2048 .f32) (p : Fin 512) (o : Fin 2048) :
    k0_pay2 (F := Ideal) v3 v5 v7 v15 v18 (ix2 p o)
      = v18 (ix2 p o) + ∑ j : Fin 256, (((∑ h : Fin 2048, v3 (ix2 p h) * v5 (ix2 j h)) * Ideal.logistic (∑ h : Fin 2048, v3 (ix2 p h) * v5 (ix2 j h))) * (∑ h : Fin 2048, v3 (ix2 p h) * v7 (ix2 j h))) * v15 (ix2 o j) := by
  unfold k0_pay2
  simp only [shapeCast_self]
  rw [addf_apply]
  refine congrArg (v18 (ix2 p o) + ·) ?_
  refine (dotB_apply _ v15 p o).trans ?_
  refine Finset.sum_congr rfl fun j _ => ?_
  rw [truncf_apply, mulf_apply, mulf_apply, logistic_apply, dotA_apply v3 v7 p j, dotA_apply v3 v5 p j]

end Cert.TileValue

end
-- ==== Proof.TileSum.lean ====
/-
  The sum over the 5632 hidden units, cut into 22 tiles of 256 units: unit `n · 256 + j` is place `j` of
  tile `n`. Its gate row is fused row `n · 256 + j` and its up row is fused row `(22 + n) · 256 + j`, since
  `5632 = 22 · 256`.
-/
import proofs.«115090_j7808250544398_2_alg».proof.Proof.Spec
import Mathlib.Algebra.BigOperators.Fin
import Mathlib.Logic.Equiv.Fin.Basic

noncomputable section

open scoped BigOperators

namespace Cert.TileSum

open Idealize.ShloMosaic Idealize.ShloMosaic.ValueIdx

/-- Place `j` of tile `n` among the 5632 hidden units. -/
def unit (n : Fin 22) (j : Fin 256) : Fin 5632 := ⟨n.val * 256 + j.val, by omega⟩

/-- A sum over the hidden units is the sum over the tiles of the sums inside each tile. -/
theorem sum_units {α : Type*} [AddCommMonoid α] (f : Fin 5632 → α) :
    ∑ i : Fin 5632, f i = ∑ n : Fin 22, ∑ j : Fin 256, f (unit n j) := by
  rw [← Fintype.sum_prod_type' (fun n j => f (unit n j))]
  refine ((Equiv.sum_comp (finProdFinEquiv (m := 22) (n := 256)) f).symm).trans ?_
  refine Finset.sum_congr rfl fun p _ => congrArg f (Fin.ext ?_)
  show p.2.val + 256 * p.1.val = p.1.val * 256 + p.2.val
  omega

theorem G_tiles (x : FVec Ideal Cert.Swiglu.SX .f32) (w : FVec Ideal Cert.Swiglu.SW .f32) (d : FVec Ideal Cert.Swiglu.SD .f32) (t : Fin 8192) (o : Fin 2048) :
    Cert.Swiglu.G x w d (ix2 t o) = ∑ n : Fin 22, ∑ j : Fin 256, Cert.Swiglu.hidden x w t (unit n j) * d (ix2 o (unit n j)) := by
  rw [Cert.Swiglu.G_apply]
  exact sum_units fun i => Cert.Swiglu.hidden x w t i * d (ix2 o i)

theorem gateRow_unit (n : Fin 22) (j : Fin 256) : (Cert.Swiglu.gateRow (unit n j)).val = n.val * 256 + j.val := rfl

theorem upRow_unit (n : Fin 22) (j : Fin 256) : (Cert.Swiglu.upRow (unit n j)).val = (22 + n.val) * 256 + j.val := by
  show 5632 + (n.val * 256 + j.val) = (22 + n.val) * 256 + j.val
  omega

end Cert.TileSum

end
-- ==== Proof.KI.Acc.lean ====
/-
  The accumulator point by point, on the extended reals. Point `t` has outer coordinate `t / 22` (token rows
  `(t / 22) · 512 + p`) and inner coordinate `t % 22` (the tile of hidden units). One step adds to the accumulator,
  at row `p` and output feature `o`, its tile's share `Σ_j hidden(row, unit) · d[o, unit]` of the sum that defines
  `G`; the step at inner coordinate 0 starts from zero. So after point `t` the accumulator holds the shares of
  tiles `0 … t % 22`, and at inner coordinate 21, where the output block receives a copy, all 22 of them: `G`.
-/
import proofs.«115090_j7808250544398_2_alg».proof.Proof.KI.Pieces
import proofs.«115090_j7808250544398_2_alg».proof.Proof.KI.Blocks
import proofs.«115090_j7808250544398_2_alg».proof.Proof.TileValue
import proofs.«115090_j7808250544398_2_alg».proof.Proof.TileSum

set_option maxRecDepth 16384

noncomputable section

open scoped BigOperators

namespace Cert.KernelIdeal.Val

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Fr

open Idealize.ShloMosaic.ValueIdx Cert.Swiglu Cert.TileSum

variable (m : (ℓ : Loc nD τ sig) → Buf (Elt Ideal) ℓ)

/-- The token array, the fused gate/up matrix and the down matrix as the program is launched with them. -/
abbrev ax (c : Dev nD) : FVec Ideal SX .f32 := m ((c.tc : Thread nD τ).loc main_arg0)
abbrev aw (c : Dev nD) : FVec Ideal SW .f32 := m ((c.tc : Thread nD τ).loc main_arg1)
abbrev ad (c : Dev nD) : FVec Ideal SD .f32 := m ((c.tc : Thread nD τ).loc main_arg2)

theorem N352 : cfg0.N = 352 := N_0

/-- The token row that row `p` of the block at position `n` is. -/
def rowN (n : ℕ) (hn : n < cfg0.N) (p : Fin 512) : Fin 8192 :=
  ⟨(n / 22) * 512 + p.val, by have := N352; have := p.isLt; omega⟩
/-- The tile of hidden units position `n` works on. -/
def tileN (n : ℕ) : Fin 22 := ⟨n % 22, Nat.mod_lt _ (by decide)⟩

/-! ## The blocks as entries of the arguments -/

theorem iblk0_apply (c : Dev nD) (t : Fin cfg0.N) (p : Fin 512) (h : Fin 2048) :
    (iblk m c 0 t : Vec Ideal S512x2048 .bf16) (ix2 p h) = ax m c (ix2 (rowN t.val t.isLt p) h) :=
  (iblk0_V m c t p h (ix2 (rowN t.val t.isLt p) h) rfl rfl).trans (by rw [V_v0]; rfl)
theorem iblk1_apply (c : Dev nD) (t : Fin cfg0.N) (j : Fin 256) (h : Fin 2048) :
    (iblk m c 1 t : Vec Ideal S256x2048 .bf16) (ix2 j h) = aw m c (ix2 (gateRow (unit (tileN t.val) j)) h) :=
  (iblk1_V m c t j h (ix2 (gateRow (unit (tileN t.val) j)) h) rfl rfl).trans (by rw [V_v1]; rfl)
theorem iblk2_apply (c : Dev nD) (t : Fin cfg0.N) (j : Fin 256) (h : Fin 2048) :
    (iblk m c 2 t : Vec Ideal S256x2048 .bf16) (ix2 j h) = aw m c (ix2 (upRow (unit (tileN t.val) j)) h) :=
  (iblk2_V m c t j h (ix2 (upRow (unit (tileN t.val) j)) h) (upRow_unit (tileN t.val) j) rfl).trans (by rw [V_v1]; rfl)
theorem iblk3_apply (c : Dev nD) (t : Fin cfg0.N) (o : Fin 2048) (j : Fin 256) :
    (iblk m c 3 t : Vec Ideal S2048x256 .bf16) (ix2 o j) = ad m c (ix2 o (unit (tileN t.val) j)) :=
  (iblk3_V m c t o j (ix2 o (unit (tileN t.val) j)) rfl rfl).trans (by rw [V_v2]; rfl)

/-! ## One step -/

/-- Tile `n`'s share of `G` at token row `r` and output feature `o` (zero past the 22 tiles). -/
def share (c : Dev nD) (r : Fin 8192) (o : Fin 2048) (n : ℕ) : EReal :=
  if h : n < 22 then ∑ j : Fin 256, hidden (ax m c) (aw m c) r (unit ⟨n, h⟩ j) * ad m c (ix2 o (unit ⟨n, h⟩ j)) else 0

/-- The step at point `t` adds its tile's share to whatever block `prev` it finds. -/
theorem step_apply (c : Dev nD) (t : Fin cfg0.N) (prev : Vec Ideal S512x2048 .f32) (p : Fin 512) (o : Fin 2048) :
    k0_pay2 (F := Ideal) (iblk m c 0 t) (iblk m c 1 t) (iblk m c 2 t) (iblk m c 3 t) prev (ix2 p o)
      = prev (ix2 p o) + share m c (rowN t.val t.isLt p) o (t.val % 22) := by
  refine (Cert.TileValue.pay2_apply (iblk m c 0 t) (iblk m c 1 t) (iblk m c 2 t) (iblk m c 3 t) prev p o).trans ?_
  refine congrArg (prev (ix2 p o) + ·) ?_
  unfold share
  rw [dif_pos (Nat.mod_lt _ (by decide))]
  refine Finset.sum_congr rfl fun j _ => ?_
  simp only [iblk0_apply, iblk1_apply, iblk2_apply, iblk3_apply]
  rfl

/-! ## Point by point -/

/-- Inner coordinate 0: the accumulator holds this tile's share alone. -/
theorem accA (c : Dev nD) (t : Fin cfg0.N) (h0 : t.val % 22 = 0) (h1 : ¬t.val % 22 = 21) (p : Fin 512) (o : Fin 2048) :
    (outsAt0 m c t.val t.isLt).2 (ix2 p o) = 0 + share m c (rowN t.val t.isLt p) o (t.val % 22) := by
  rw [outsAt0_A m c t h0 h1]
  dsimp only
  rw [soutA_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)]
  rw [step_apply m c t (k0_pay1 (F := Ideal)) p o, Cert.TileValue.pay1_apply]

/-- Inner coordinate strictly between 0 and 21: what the point before left, plus this tile's share. -/
theorem accB (c : Dev nD) (t : Fin cfg0.N) (h0 : ¬t.val % 22 = 0) (h1 : ¬t.val % 22 = 21) (p : Fin 512) (o : Fin 2048) :
    (outsAt0 m c t.val t.isLt).2 (ix2 p o)
      = (outsAt0 m c (t.val - 1) (Nat.lt_of_le_of_lt (Nat.sub_le _ _) t.isLt)).2 (ix2 p o) + share m c (rowN t.val t.isLt p) o (t.val % 22) := by
  rw [outsAt0_B m c t h0 h1]
  dsimp only
  rw [soutB_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2]
  exact step_apply m c t (outsAt0 m c (t.val - 1) (Nat.lt_of_le_of_lt (Nat.sub_le _ _) t.isLt)).2 p o

/-- Inner coordinate 21: the same for the accumulator, -/
theorem accC (c : Dev nD) (t : Fin cfg0.N) (h0 : ¬t.val % 22 = 0) (h1 : t.val % 22 = 21) (p : Fin 512) (o : Fin 2048) :
    (outsAt0 m c t.val t.isLt).2 (ix2 p o)
      = (outsAt0 m c (t.val - 1) (Nat.lt_of_le_of_lt (Nat.sub_le _ _) t.isLt)).2 (ix2 p o) + share m c (rowN t.val t.isLt p) o (t.val % 22) := by
  rw [outsAt0_C m c t h0 h1]
  dsimp only
  rw [soutC_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  exact step_apply m c t (outsAt0 m c (t.val - 1) (Nat.lt_of_le_of_lt (Nat.sub_le _ _) t.isLt)).2 p o

/-- and the output block receives the same value. -/
theorem outC (c : Dev nD) (t : Fin cfg0.N) (h0 : ¬t.val % 22 = 0) (h1 : t.val % 22 = 21) (p : Fin 512) (o : Fin 2048) :
    (outsAt0 m c t.val t.isLt).1 (ix2 p o)
      = (outsAt0 m c (t.val - 1) (Nat.lt_of_le_of_lt (Nat.sub_le _ _) t.isLt)).2 (ix2 p o) + share m c (rowN t.val t.isLt p) o (t.val % 22) := by
  rw [outsAt0_C m c t h0 h1]
  dsimp only
  rw [outC_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  exact step_apply m c t (outsAt0 m c (t.val - 1) (Nat.lt_of_le_of_lt (Nat.sub_le _ _) t.isLt)).2 p o

/-- The shares of tiles `0 … n % 22` at the token row of position `n`. -/
def accVal (c : Dev nD) (n : ℕ) (hn : n < cfg0.N) (p : Fin 512) (o : Fin 2048) : EReal :=
  ∑ n' ∈ Finset.range (n % 22 + 1), share m c (rowN n hn p) o n'

theorem accVal_start (c : Dev nD) (n : ℕ) (hn : n < cfg0.N) (h0 : n % 22 = 0) (p : Fin 512) (o : Fin 2048) :
    accVal m c n hn p o = 0 + share m c (rowN n hn p) o (n % 22) := by
  unfold accVal
  rw [h0, Finset.sum_range_one, zero_add]

theorem accVal_next (c : Dev nD) (n : ℕ) (hn : n + 1 < cfg0.N) (h0 : ¬(n + 1) % 22 = 0) (p : Fin 512) (o : Fin 2048) :
    accVal m c (n + 1) hn p o
      = accVal m c n (Nat.lt_of_succ_lt hn) p o + share m c (rowN (n + 1) hn p) o ((n + 1) % 22) := by
  have e : (n + 1) % 22 = n % 22 + 1 := by omega
  have er : rowN (n + 1) hn p = rowN n (Nat.lt_of_succ_lt hn) p :=
    Fin.ext (by show (n + 1) / 22 * 512 + p.val = n / 22 * 512 + p.val; omega)
  unfold accVal
  rw [e, Finset.sum_range_succ, er]

/-- After every position the accumulator holds the shares of the tiles done so far in its row block. -/
theorem acc_eq (c : Dev nD) : ∀ (n : ℕ) (hn : n < cfg0.N) (p : Fin 512) (o : Fin 2048),
    (outsAt0 m c n hn).2 (ix2 p o) = accVal m c n hn p o := by
  intro n
  induction n with
  | zero =>
    intro hn p o
    rw [accVal_start m c 0 hn rfl p o]
    exact accA m c ⟨0, hn⟩ rfl (by show ¬(0 % 22 = 21); decide) p o
  | succ n ih =>
    intro hn p o
    by_cases h0 : (n + 1) % 22 = 0
    · rw [accVal_start m c (n + 1) hn h0 p o]
      exact accA m c ⟨n + 1, hn⟩ h0 (by show ¬((n + 1) % 22 = 21); omega) p o
    · rw [accVal_next m c n hn h0 p o, ← ih (Nat.lt_of_succ_lt hn) p o]
      by_cases h1 : (n + 1) % 22 = 21
      · exact accC m c ⟨n + 1, hn⟩ h0 h1 p o
      · exact accB m c ⟨n + 1, hn⟩ h0 h1 p o

/-- All 22 shares are `G`. -/
theorem accVal_full (c : Dev nD) (n : ℕ) (hn : n < cfg0.N) (h1 : n % 22 = 21) (p : Fin 512) (o : Fin 2048) :
    accVal m c n hn p o = G (ax m c) (aw m c) (ad m c) (ix2 (rowN n hn p) o) := by
  have e : n % 22 + 1 = 22 := by omega
  unfold accVal
  rw [e, Finset.sum_range, G_tiles]
  refine Finset.sum_congr rfl fun i _ => ?_
  unfold share
  rw [dif_pos i.isLt]

/-- At inner coordinate 21 the output block holds `G` at its token rows. -/
theorem out_eq (c : Dev nD) (t : Fin cfg0.N) (h1 : t.val % 22 = 21) (p : Fin 512) (o : Fin 2048) :
    (outsAt0 m c t.val t.isLt).1 (ix2 p o) = G (ax m c) (aw m c) (ad m c) (ix2 (rowN t.val t.isLt p) o) := by
  have h0 : ¬t.val % 22 = 0 := by omega
  rw [outC m c t h0 h1 p o, ← accC m c t h0 h1 p o, acc_eq m c t.val t.isLt p o]
  exact accVal_full m c t.val t.isLt h1 p o

end Cert.KernelIdeal.Val

end
-- ==== Proof.KI.Final.lean ====
/-
  From the output blocks to the output array. The output block is written back at the points of inner
  coordinate 21; the block of the point with outer coordinate `M` is token rows `M · 512 … M · 512 + 511`,
  all 2048 output features, and it holds `G` there. Every token row `r` lies in the block of outer coordinate
  `r / 512`, so the sixteen write-backs cover the array and it ends holding `G`.
-/
import proofs.«115090_j7808250544398_2_alg».proof.Proof.KI.Acc

set_option maxRecDepth 16384

noncomputable section

open scoped BigOperators

namespace Cert.KernelIdeal.Val

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Fr

open Idealize.ShloMosaic.ValueIdx Cert.Swiglu Cert.TileSum

variable (m : (ℓ : Loc nD τ sig) → Buf (Elt Ideal) ℓ)

/-- What a point of inner coordinate 21 writes back is its block of `G`. -/
theorem flushed_eq (c : Dev nD) (t : Fin cfg0.N) (hf : (cfg0.win 4).flush t = true) :
    (dats (F := Ideal) m 0 c).flushed 4 t = ((cfg0.win 4).blk t).view.read (Elt Ideal) (G (ax m c) (aw m c) (ad m c)) := by
  have h1 : t.val % 22 = 21 := (flush0_4 t).mp hf
  obtain ⟨-, -, -, -, -, -, -, -, e0, e1⟩ := idx_facts t
  show (cfg0.win 4).cut (grid0.coords t) ((dats (F := Ideal) m 0 c).after 4 t) = _
  rw [after0_4]
  funext j
  obtain ⟨p, o, rfl⟩ : ∃ (p : Fin 512) (o : Fin 2048), j = ix2 p o := ⟨j 0, j 1, eq_ix2 j⟩
  show (outsAt0 m c t.val t.isLt).1 (ix2 p o) = G (ax m c) (aw m c) (ad m c) (((cfg0.win 4).blk t).view.emb (ix2 p o))
  rw [out_eq m c t h1 p o]
  refine congrArg (G (ax m c) (aw m c) (ad m c)) (funext fun a => Fin.ext ?_)
  match a with
  | ⟨0, _⟩ => show t.val / 22 * 512 + p.val = win0_4.index t (0 : Fin 2) * 512 + 1 * p.val; rw [e0]; omega
  | ⟨1, _⟩ => show o.val = win0_4.index t (1 : Fin 2) * 2048 + 1 * o.val; rw [e1]; omega

/-- An index of the array is in point `t`'s output block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v3).slice (win0_4.rect t)).set ↔ _
  rw [View.set_slice_whole, Rect.mem_set_unit]
  exact Iff.rfl

/-- Every index of the output array is in the block some point of inner coordinate 21 writes back. -/
theorem cover (i : S8192x2048.Idx) : ∃ t : Fin cfg0.N, (cfg0.win 4).flush t = true ∧ i ∈ ((cfg0.win 4).blk t).view.set := by
  have hN : cfg0.N = 352 := N_0
  have hi0 : (i 0).val < 8192 := (i 0).isLt
  have hi1 : (i 1).val < 2048 := (i 1).isLt
  have ht : (i 0).val / 512 * 22 + 21 < cfg0.N := by omega
  refine ⟨⟨(i 0).val / 512 * 22 + 21, ht⟩, (flush0_4 _).mpr (by show ((i 0).val / 512 * 22 + 21) % 22 = 21; omega), ?_⟩
  obtain ⟨-, -, -, -, -, -, -, -, e0, e1⟩ := idx_facts ⟨(i 0).val / 512 * 22 + 21, ht⟩
  have e0' : win0_4.index ⟨(i 0).val / 512 * 22 + 21, ht⟩ (0 : Fin 2) = ((i 0).val / 512 * 22 + 21) / 22 := e0
  rw [mem_blk]
  intro a
  match a with
  | ⟨0, _⟩ =>
    show win0_4.index ⟨(i 0).val / 512 * 22 + 21, ht⟩ (0 : Fin 2) * 512 ≤ (i 0).val ∧ (i 0).val < win0_4.index ⟨(i 0).val / 512 * 22 + 21, ht⟩ (0 : Fin 2) * 512 + 512
    rw [e0']; omega
  | ⟨1, _⟩ =>
    show win0_4.index ⟨(i 0).val / 512 * 22 + 21, ht⟩ (1 : Fin 2) * 2048 ≤ (i 1).val ∧ (i 1).val < win0_4.index ⟨(i 0).val / 512 * 22 + 21, ht⟩ (1 : Fin 2) * 2048 + 2048
    rw [e1]; omega

/-- The output array after the last point is `G` of the three arguments. -/
theorem final4 (m : (ℓ : Loc Cert.KernelIdeal.nD Cert.KernelIdeal.τ Cert.KernelIdeal.sig) → Buf (Elt Ideal) ℓ) (c : Dev Cert.KernelIdeal.nD) :
    (Cert.KernelIdeal.Fr.dats (F := Ideal) m 0 c).arrAt 4 Cert.KernelIdeal.cfg0.N
      = Cert.Swiglu.G (m ((c.tc : Thread _ _).loc Cert.KernelIdeal.main_arg0)) (m ((c.tc : Thread _ _).loc Cert.KernelIdeal.main_arg1)) (m ((c.tc : Thread _ _).loc Cert.KernelIdeal.main_arg2)) :=
  (dats (F := Ideal) m 0 c).arrAt_eq_of_cover 4 (G (ax m c) (aw m c) (ad m c)) (fun t hf => flushed_eq m c t hf) cover

end Cert.KernelIdeal.Val

end
-- ==== Proof.RefSpec.lean ====
/-
  The reference program's last stage, read element by element, is the closed form `G`: its first
  product gives every projection, the two slices pick the gate half and the up half of the fused rows,
  the spelt-out quotient `1 / (1 + e^(-g))` is the logistic function, and the last product sums the
  hidden activations against the rows of the down matrix.
-/
import proofs.«115090_j7808250544398_2_alg».proof.Proof.Spec
import proofs.«115090_j7808250544398_2_alg».proof.Proof.Gen.ReferenceIdeal.Read

noncomputable section

open scoped BigOperators

namespace Cert.RefSpec

open Idealize.ShloMosaic Idealize.ShloMosaic.ValueIdx Cert.ReferenceIdeal Cert.ReferenceIdeal.Read Cert.Swiglu

/-- The word `0x3F800000` encodes the real number one. -/
theorem ofBits_one_f32 : Ideal.ofBits .f32 0x3F800000#32 = 1 := by
  simp [Ideal.ofBits, Ideal.ieee, -EReal.coe_mul]; norm_num

/-- The first product at row `t`, column `o` is the projection of token `t` on fused row `o`. -/
theorem v0_apply (x0 : (⟨S8192x2048, .f32⟩ : BufTy).Contents (Elt Ideal)) (x1 : (⟨S11264x2048, .f32⟩ : BufTy).Contents (Elt Ideal))
    (t : Fin 8192) (o : Fin 11264) :
    val_main_v0 (F := Ideal) x0 x1 (ix2 t o) = proj x0 x1 t o := by
  rw [val_main_v0_apply]
  unfold proj
  refine Finset.sum_congr rfl fun k _ => ?_
  have el : lidx_main_v0 (ix2 t o) k = ix2 t k := funext fun a => Fin.ext (by
    match a with
    | ⟨0, _⟩ => rfl
    | ⟨1, _⟩ => rfl)
  have er : ridx_main_v0 (ix2 t o) k = ix2 o k := funext fun a => Fin.ext (by
    match a with
    | ⟨0, _⟩ => rfl
    | ⟨1, _⟩ => rfl)
  rw [el, er]

/-- The gate slice at `(t, i)` is the projection on the gate row of unit `i`. -/
theorem v1_apply (x0 : (⟨S8192x2048, .f32⟩ : BufTy).Contents (Elt Ideal)) (x1 : (⟨S11264x2048, .f32⟩ : BufTy).Contents (Elt Ideal))
    (t : Fin 8192) (i : Fin 5632) :
    val_main_v1 (F := Ideal) x0 x1 (ix2 t i) = proj x0 x1 t (gateRow i) := by
  rw [val_main_v1_apply]
  have e : idx_main_v1 (ix2 t i) = ix2 t (gateRow i) := funext fun a => Fin.ext (by
    match a with
    | ⟨0, _⟩ => rfl
    | ⟨1, _⟩ => rfl)
  rw [e, v0_apply]

/-- The up slice at `(t, i)` is the projection on the up row of unit `i`. -/
theorem v2_apply (x0 : (⟨S8192x2048, .f32⟩ : BufTy).Contents (Elt Ideal)) (x1 : (⟨S11264x2048, .f32⟩ : BufTy).Contents (Elt Ideal))
    (t : Fin 8192) (i : Fin 5632) :
    val_main_v2 (F := Ideal) x0 x1 (ix2 t i) = proj x0 x1 t (upRow i) := by
  rw [val_main_v2_apply]
  have e : idx_main_v2 (ix2 t i) = ix2 t (upRow i) := funext fun a => Fin.ext (by
    match a with
    | ⟨0, _⟩ => rfl
    | ⟨1, _⟩ => rfl)
  rw [e, v0_apply]

/-- The quotient `1 / (1 + e^(-g))` the reference spells is the logistic function of the gate. -/
theorem call0_v5_apply (x0 : (⟨S8192x2048, .f32⟩ : BufTy).Contents (Elt Ideal)) (x1 : (⟨S11264x2048, .f32⟩ : BufTy).Contents (Elt Ideal))
    (t : Fin 8192) (i : Fin 5632) :
    val_main_call0_v5 (F := Ideal) x0 x1 (ix2 t i) = Ideal.logistic (proj x0 x1 t (gateRow i)) := by
  rw [val_main_call0_v5_apply, val_main_call0_v4_apply, val_main_call0_cst_0_apply, val_main_call0_v3_apply,
    val_main_call0_v2_apply, val_main_call0_cst_apply, val_main_call0_v1_apply, val_main_call0_v0_apply, v1_apply]
  show Ideal.div (Ideal.ofBits .f32 0x3F800000#32) (Ideal.ofBits .f32 0x3F800000#32 + Ideal.exp (-(proj x0 x1 t (gateRow i)))) = _
  rw [ofBits_one_f32]
  rfl

/-- The product of the three factors at `(t, i)` is the hidden activation of unit `i`. -/
theorem v4_apply (x0 : (⟨S8192x2048, .f32⟩ : BufTy).Contents (Elt Ideal)) (x1 : (⟨S11264x2048, .f32⟩ : BufTy).Contents (Elt Ideal))
    (t : Fin 8192) (i : Fin 5632) :
    val_main_v4 (F := Ideal) x0 x1 (ix2 t i) = hidden x0 x1 t i := by
  rw [val_main_v4_apply, val_main_v3_apply, v1_apply, v2_apply, call0_v5_apply]
  rfl

/-- The reference's last stage is `G`. -/
theorem ref_eq_G (x0 : (⟨Cert.ReferenceIdeal.S8192x2048, .f32⟩ : BufTy).Contents (Elt Ideal)) (x1 : (⟨Cert.ReferenceIdeal.S11264x2048, .f32⟩ : BufTy).Contents (Elt Ideal)) (x2 : (⟨Cert.ReferenceIdeal.S2048x5632, .f32⟩ : BufTy).Contents (Elt Ideal)) :
    Cert.ReferenceIdeal.Read.val_main_v5 (F := Ideal) x0 x1 x2 = Cert.Swiglu.G x0 x1 x2 := by
  funext i
  obtain ⟨t, o, rfl⟩ : ∃ (t : Fin 8192) (o : Fin 2048), i = ix2 t o := ⟨i 0, i 1, eq_ix2 i⟩
  rw [val_main_v5_apply, G_apply]
  refine Finset.sum_congr rfl fun k _ => ?_
  have el : lidx_main_v5 (ix2 t o) k = ix2 t k := funext fun a => Fin.ext (by
    match a with
    | ⟨0, _⟩ => rfl
    | ⟨1, _⟩ => rfl)
  have er : ridx_main_v5 (ix2 t o) k = ix2 o k := funext fun a => Fin.ext (by
    match a with
    | ⟨0, _⟩ => rfl
    | ⟨1, _⟩ => rfl)
  rw [el, er, v4_apply]

end Cert.RefSpec

end
-- ==== Proof.lean ====
/-
  The certificate of the fused SwiGLU expert kernel against its jnp reference.

  The kernel cuts the 5632 hidden units into 22 tiles of 256. At grid point (token tile, hidden tile) it
  projects the 512 token rows on the tile's gate rows and up rows of the fused matrix, forms
  (g · logistic g) · u, contracts it against the tile's columns of the down matrix and adds the result to an
  accumulator that it clears at the first hidden tile and copies to the output block at the last. The reference
  computes the two projections as one product, splits it, and contracts all 5632 hidden units at once. On the
  extended reals the kernel's logistic is by definition the reference's 1 / (1 + exp(−g)), a narrowing of the
  float format is the identity, and the sum over the hidden units is the sum over the tiles of the sums inside
  each tile, so both programs compute the function `Cert.Swiglu.G` of the three arguments; only the associativity
  and commutativity of addition are used, and no finiteness of the inputs.

  The three frames: the word-level kernel and its idealization run the same text, so one frame proof, generic
  in the float instance, serves both (the fused matrix is read through two windows, whose array's share is split
  in two halves at the region's entry and joined at its end); the reference's frame is its run with the result
  dropped. The idealization rewrote nothing, so the preservation conjunct is trivial.
-/
import proofs.«115090_j7808250544398_2_alg».proof.Defs
import proofs.«115090_j7808250544398_2_alg».proof.Proof.Gen.Kernel
import proofs.«115090_j7808250544398_2_alg».proof.Proof.Gen.KernelIdeal
import proofs.«115090_j7808250544398_2_alg».proof.Proof.Gen.ReferenceIdeal
import proofs.«115090_j7808250544398_2_alg».proof.Proof.Gen.Pre_finite_inputs
import proofs.«115090_j7808250544398_2_alg».proof.Proof.Gen.ReferenceIdeal.Run
import proofs.«115090_j7808250544398_2_alg».proof.Proof.Gen.ReferenceIdeal.Read
import proofs.«115090_j7808250544398_2_alg».proof.Proof.K.Launch
import proofs.«115090_j7808250544398_2_alg».proof.Proof.KI.Launch
import proofs.«115090_j7808250544398_2_alg».proof.Proof.KI.Final
import proofs.«115090_j7808250544398_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at `G` of the three arguments: the kernel's by its accumulation
    over the hidden tiles, the reference's by reading its fourteen operations one at a time. -/
theorem algebraic : Cert.algebraic_KernelIdeal_ReferenceIdeal := by
  intro m ρ m' ρ' _ hagree
  refine ⟨fun c => Cert.Swiglu.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Val.final4 m c), (h c).2⟩) (Cert.KernelIdeal.Fr.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v5_eq _ _ _).trans (Cert.RefSpec.ref_eq_G _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
